-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S16384x512 .f32) (main_arg2 : IVec S16384 32) (main_arg3 : IVec S16384 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S16384x512 : Shape := ⟨2, ![16384, 512]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S512x1024 : Shape := ⟨2, ![512, 1024]⟩
abbrev S_ : Shape := ⟨0, ![]⟩

abbrev nBuf : Space → Nat
  | .hbm => 12
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384, .i32⟩
  | .hbm, ⟨3, _⟩ => ⟨S16384, .i32⟩
  | .hbm, ⟨4, _⟩ => ⟨S16384x1, .i32⟩
  | .hbm, ⟨5, _⟩ => ⟨S1x16384, .i32⟩
  | .hbm, ⟨6, _⟩ => ⟨S16384x16384, .f32⟩
  | .hbm, ⟨7, _⟩ => ⟨S16384x16384, .i32⟩
  | .hbm, ⟨8, _⟩ => ⟨S_, .i32⟩
  | .hbm, ⟨9, _⟩ => ⟨S16384x16384, .i32⟩
  | .hbm, ⟨10, _⟩ => ⟨S16384x16384, .i1⟩
  | .hbm, ⟨11, _⟩ => ⟨S16384x16384, .i1⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1024, .f32⟩
  | .local _ .vmem, ⟨9, _⟩ => ⟨S1024x1024, .f32⟩
  | .local _ .vmem, ⟨10, _⟩ => ⟨S1024x1024, .i32⟩
  | .local _ .vmem, ⟨11, _⟩ => ⟨S1024x1024, .i32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S16384_S16384x1 : S16384.ShapeCasts S16384x1
  shapeCasts_S16384_S1x16384 : S16384.ShapeCasts S1x16384
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  natLt_1_32 : 1 < 32
  bcast_S_S16384x16384 : S_.BroadcastsInDim S16384x16384 (![] : Fin 0 → Fin S16384x16384.rank)
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .i32 = 32 ∨ (Rect.block (s := S16384x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .i32 = 32 ∨ (Rect.block (s := S1x16384) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x16384.size a
  hwx0_4 : ∀ i : grid0.Coords, EltTy.bits .f32 = 32 ∨ (Rect.block (s := S16384x16384) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x16384.size a
  hwx0_5 : ∀ i : grid0.Coords, EltTy.bits .i32 = 32 ∨ (Rect.block (s := S16384x16384) S1024x1024.size (cc0_transform_5 i) (hinb0_5 i)).WholeWords (EltTy.packing .i32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384 : Shape := ⟨1, ![16384]⟩
abbrev S512x16384 : Shape := ⟨2, ![512, 16384]⟩
abbrev S16384x16384 : Shape := ⟨2, ![16384, 16384]⟩
abbrev S16384x1 : Shape := ⟨2, ![16384, 1]⟩
abbrev S1x16384 : Shape := ⟨2, ![1, 16384]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384, .i32⟩
  | .hbm, ⟨3, _⟩ => ⟨S16384, .i32⟩
  | .hbm, ⟨4, _⟩ => ⟨S512x16384, .f32⟩
  | .hbm, ⟨5, _⟩ => ⟨S16384x16384, .f32⟩
  | .hbm, ⟨6, _⟩ => ⟨S16384x1, .i32⟩
  | .hbm, ⟨7, _⟩ => ⟨S1x16384, .i32⟩
  | .hbm, ⟨8, _⟩ => ⟨S16384x16384, .i32⟩
  | .hbm, ⟨9, _⟩ => ⟨S16384x16384, .i32⟩
  | .hbm, ⟨10, _⟩ => ⟨S16384x16384, .i1⟩
  | .hbm, ⟨11, _⟩ => ⟨S_, .f32⟩
  | .hbm, ⟨12, _⟩ => ⟨S_, .f32⟩
  | .hbm, ⟨13, _⟩ => ⟨S16384x16384, .f32⟩
  | .hbm, ⟨14, _⟩ => ⟨S16384x16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  transposes_S16384x512_S512x16384_1_0 : S16384x512.Transposes [1, 0] S512x16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  dot_S16384x512_S512x16384_S16384x16384_1_0_0_1_n_n_wf : DotDims.WF S16384x512 S512x16384 S16384x16384 [1] [0] [0] [1] [] []

variable [Facts₀]

def dot_S16384x512_S512x16384_S16384x16384_1_0_0_1_n_n : DotDims S16384x512 S512x16384 S16384x16384 where
  lhsContracting := [1]
  rhsContracting := [0]
  lhsNonContracting := [0]
  rhsNonContracting := [1]
  lhsBatch := []
  rhsBatch := []
  wf := dot_S16384x512_S512x16384_S16384x16384_1_0_0_1_n_n_wf

class Facts : Prop extends Facts₀ where

variable [Facts]
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«140015_j11982958756713_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.SameBatchScores.lean ====
/-
  The specification both programs are compared with.

  Queries are the 16384 rows of `hq`, candidates the 16384 rows of `hc`, both with 512 features; `bq` and `bc` give
  each query and each candidate a batch number (a 32-bit word).  Entry `(r, c)` of the result is

      scores (r, c) = Σ_{k < 512} hq (r, k) · hc (c, k)     if bq r = bc c,
                      the float word 0xFF800000 (−∞)        otherwise,
      mask   (r, c) = the bit "bq r = bc c".

  Over the extended reals the products and the sum are exact, so nothing here depends on the order of the 512 terms or
  on the format the operands were rounded to on the way.
-/
import Idealize.ShloMosaic.PureOps.Ideal
import Idealize.ShloMosaic.Lib.ValueIdx

noncomputable section

namespace Cert.SameBatch

open Idealize.ShloMosaic Idealize.ShloMosaic.ValueIdx

/-- The bit "query `r` and candidate `c` carry the same batch number". -/
def same (bq bc : IVec ⟨1, ![16384]⟩ 32) (r c : Fin 16384) : BitVec 1 :=
  IntOp.cmpi .eq (bq (ix1 r)) (bc (ix1 c))

/-- The dot product of query row `r` with candidate row `c`. -/
def dotRows (hq hc : FVec Ideal ⟨2, ![16384, 512]⟩ .f32) (r c : Fin 16384) : EReal :=
  ∑ k : Fin 512, hq (ix2 r k) * hc (ix2 c k)

/-- One entry of the masked scores: the dot product inside a batch, −∞ across batches. -/
def scoreAt (hq hc : FVec Ideal ⟨2, ![16384, 512]⟩ .f32) (bq bc : IVec ⟨1, ![16384]⟩ 32) (r c : Fin 16384) : EReal :=
  Scalar.select (same bq bc r c) (dotRows hq hc r c) (Ideal.ofBits .f32 0xFF800000#32)

/-- The masked scores as a whole array. -/
def scores (hq hc : FVec Ideal ⟨2, ![16384, 512]⟩ .f32) (bq bc : IVec ⟨1, ![16384]⟩ 32) :
    FVec Ideal ⟨2, ![16384, 16384]⟩ .f32 :=
  fun i => scoreAt hq hc bq bc (i 0) (i 1)

/-- The same-batch mask as a whole array of bits. -/
def mask (bq bc : IVec ⟨1, ![16384]⟩ 32) : IVec ⟨2, ![16384, 16384]⟩ 1 :=
  fun i => same bq bc (i 0) (i 1)

/-- A bit widened to a 32-bit word is nonzero exactly when the bit is set: storing the mask as words and reading it back
    by "≠ 0" returns the mask. -/
theorem ne_zero_of_widened (b : BitVec 1) : IntOp.cmpi .ne (b.setWidth 32) 0#32 = b := by
  revert b; decide

end Cert.SameBatch

end
-- ==== Proof.TileEntries.lean ====
/-
  What the kernel's body computes for one tile, entry by entry.

  The body sees a block `x0` of 1024 query rows, a block `x1` of 1024 candidate rows (512 features each), the column `x2`
  of the queries' batch numbers and the row `x3` of the candidates' batch numbers.  At entry `(p, q)` of the tile:
  the comparison of the two broadcast batch numbers is the bit "x2 p = x3 q"; the matrix product of the rounded query
  block with the transposed rounded candidate block, into a zero accumulator, is Σ_{k < 512} x0 (p, k) · x1 (q, k) (over
  the extended reals rounding to a narrower format is the identity); the stored score selects between that sum and −∞ by
  the bit, and the stored mask word is the bit widened to 32 bits.
-/
import proofs.«140015_j11982958756713_1_alg».proof.Proof.Gen.KernelIdeal.Skeleton
import proofs.«140015_j11982958756713_1_alg».proof.Proof.LibPlainDotFormats
import proofs.«140015_j11982958756713_1_alg».proof.Proof.SameBatchScores
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The tile's product contracts the features: second axis of the query block against first axis of the transposed
    candidate block, no batch axis. -/
theorem plain : Cert.LibPlainDot.Plain dot_S1024x512_S512x1024_S1024x1024_1_0_0_1_n_n := ⟨rfl, rfl, rfl, rfl, rfl, rfl⟩

/-- The comparison at `(p, q)`: the bit "query `p` of the tile and candidate `q` of the tile have the same batch number". -/
theorem same_entry (x2 : Vec Ideal S1024x1 .i32) (x3 : Vec Ideal S1x1024 .i32) (p q : Fin 1024) :
    k0_pay1 (F := Ideal) x2 x3 (ix2 p q) = IntOp.cmpi .eq (x2 (ix2 p (0 : Fin 1))) (x3 (ix2 (0 : Fin 1) q)) := by
  unfold k0_pay1
  show IntOp.cmpi .eq
      (broadcastTo S1024x1024 (shapeCast S1024x1 x2 shapeCasts_S1024x1_S1024x1) broadcasts_S1024x1_S1024x1024 (ix2 p q))
      (broadcastTo S1024x1024 (shapeCast S1x1024 x3 shapeCasts_S1x1024_S1x1024) broadcasts_S1x1024_S1024x1024 (ix2 p q)) = _
  rw [shapeCast_self, shapeCast_self, broadcastTo_a1_ab_apply, broadcastTo_1b_ab_apply]

/-- The stored score at `(p, q)`: the dot product of the tile's query row `p` with its candidate row `q` where the batch
    numbers agree, −∞ where they differ. -/
theorem score_entry (x0 x1 : Vec Ideal S1024x512 .f32) (x2 : Vec Ideal S1024x1 .i32) (x3 : Vec Ideal S1x1024 .i32)
    (p q : Fin 1024) :
    k0_pay2 (F := Ideal) x0 x1 x2 x3 (ix2 p q)
      = Scalar.select (IntOp.cmpi .eq (x2 (ix2 p (0 : Fin 1))) (x3 (ix2 (0 : Fin 1) q)))
          (∑ k : Fin 512, x0 (ix2 p k) * x1 (ix2 q k)) (Ideal.ofBits .f32 0xFF800000#32) := by
  unfold k0_pay2
  show Scalar.select (k0_pay1 (F := Ideal) x2 x3 (ix2 p q))
      (FloatOps.matmul dot_S1024x512_S512x1024_S1024x1024_1_0_0_1_n_n none (truncf .bf16 x0 bitsLt_bf16_f32)
        (transpose S512x1024 [1, 0] (truncf .bf16 x1 bitsLt_bf16_f32) transposes_S1024x512_p1_0_S512x1024)
        (constant S1024x1024 .f32 0x00000000#32) (ix2 p q))
      (Ideal.ofBits .f32 0xFF800000#32) = _
  rw [same_entry, plain.matmul_zero_apply_formats]
  refine congrArg (fun s => Scalar.select _ s _) (Finset.sum_congr rfl fun k _ => ?_)
  rw [transpose_ix2_apply]
  rfl

/-- The stored mask word at `(p, q)`: the comparison bit widened to 32 bits. -/
theorem word_entry (x2 : Vec Ideal S1024x1 .i32) (x3 : Vec Ideal S1x1024 .i32) (p q : Fin 1024) :
    k0_pay3 (F := Ideal) x2 x3 (ix2 p q)
      = (IntOp.cmpi .eq (x2 (ix2 p (0 : Fin 1))) (x3 (ix2 (0 : Fin 1) q))).setWidth 32 := by
  unfold k0_pay3
  show (k0_pay1 (F := Ideal) x2 x3 (ix2 p q)).setWidth 32 = _
  rw [same_entry]

/-! ## A tile whose blocks are pieces of the whole arrays

If row `p` of the query block is row `r` of all queries, row `q` of the candidate block is row `c` of all candidates,
and the two batch numbers the tile sees at `p` and `q` are those of `r` and `c`, then what the body stores at `(p, q)` is the
specification's entry `(r, c)`. -/

/-- The stored score is the masked score of query `r` against candidate `c`. -/
theorem score_of_blocks (hq hc : FVec Ideal S16384x512 .f32) (bq bc : IVec S16384 32)
    (x0 x1 : Vec Ideal S1024x512 .f32) (x2 : Vec Ideal S1024x1 .i32) (x3 : Vec Ideal S1x1024 .i32)
    (r c : Fin 16384) (p q : Fin 1024)
    (h0 : ∀ k : Fin 512, x0 (ix2 p k) = hq (ix2 r k)) (h1 : ∀ k : Fin 512, x1 (ix2 q k) = hc (ix2 c k))
    (h2 : x2 (ix2 p (0 : Fin 1)) = bq (ix1 r)) (h3 : x3 (ix2 (0 : Fin 1) q) = bc (ix1 c)) :
    k0_pay2 (F := Ideal) x0 x1 x2 x3 (ix2 p q) = Cert.SameBatch.scoreAt hq hc bq bc r c := by
  rw [score_entry, h2, h3]
  unfold Cert.SameBatch.scoreAt Cert.SameBatch.same Cert.SameBatch.dotRows
  refine congrArg (fun s => Scalar.select _ s _) (Finset.sum_congr rfl fun k _ => ?_)
  rw [h0, h1]

/-- The stored mask word is the same-batch bit of `r` and `c`, widened. -/
theorem word_of_blocks (bq bc : IVec S16384 32) (x2 : Vec Ideal S1024x1 .i32) (x3 : Vec Ideal S1x1024 .i32)
    (r c : Fin 16384) (p q : Fin 1024)
    (h2 : x2 (ix2 p (0 : Fin 1)) = bq (ix1 r)) (h3 : x3 (ix2 (0 : Fin 1) q) = bc (ix1 c)) :
    k0_pay3 (F := Ideal) x2 x3 (ix2 p q) = (Cert.SameBatch.same bq bc r c).setWidth 32 := by
  rw [word_entry, h2, h3]
  rfl

end Cert.KernelIdeal.Tile

end
-- ==== Proof.TilesToArrays.lean ====
/-
  From tiles to the whole arrays.

  The grid has 16 × 16 points; point `t` is tile `(t / 16, t % 16)`: it stages rows `1024·(t / 16) …` of the queries and of
  the queries' batch column, rows `1024·(t % 16) …` of the candidates and the matching stretch of the candidates' batch
  row, and writes back block `(t / 16, t % 16)` of both result arrays.  The batch column and row the region finds are the
  two batch vectors recast to `[16384, 1]` and `[1, 16384]`, so their entries are the vectors' entries.  Hence what a
  point writes back is the corresponding block of the specification, and since every entry `(r, c)` lies in the block of
  point `16·(r / 1024) + c / 1024`, the two arrays end holding the specification everywhere.
-/
import proofs.«140015_j11982958756713_1_alg».proof.Proof.Gen.KernelIdeal.Frame
import proofs.«140015_j11982958756713_1_alg».proof.Proof.TileEntries
import Idealize.ShloMosaic.Lib.StableHlo.Run
import Idealize.ShloMosaic.Lib.Pipeline.Value

noncomputable section

namespace Cert.KernelIdeal.Tiles

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-! ## The two batch arrays the region finds -/

/-- The queries' batch column is the batch vector recast to one column. -/
theorem batch_column (c : Dev nD) :
    (V m c main_v0 : S16384x1.Idx → BitVec 32)
      = shapeCast S16384x1 (m ((c : Thread nD τ).loc main_arg2)) shapeCasts_S16384_S16384x1 := by
  show StableHlo.after hostOps0 (fun b => m (c, b)) (Proc.devRef .tc main_v0) = _
  after_results
  rfl

/-- The candidates' batch row is the batch vector recast to one row. -/
theorem batch_row (c : Dev nD) :
    (V m c main_v1 : S1x16384.Idx → BitVec 32)
      = shapeCast S1x16384 (m ((c : Thread nD τ).loc main_arg3)) shapeCasts_S16384_S1x16384 := by
  show StableHlo.after hostOps0 (fun b => m (c, b)) (Proc.devRef .tc main_v1) = _
  after_results
  rfl

/-- A vector recast to one column reads, at row `r`, the vector's entry `r`. -/
theorem column_entry (b : IVec S16384 32) (y : S16384x1.Idx) (r : Fin 16384) (hr : (y 0).val = r.val) :
    shapeCast S16384x1 b shapeCasts_S16384_S16384x1 y = b (ix1 r) :=
  shapeCast_apply b shapeCasts_S16384_S16384x1 y (ix1 r) (by
    have h1 : (y 1).val < 1 := (y 1).isLt
    rw [Shape.rowMajor_val_two, Shape.rowMajor_val_one]
    show r.val = (y 0).val * 1 + (y 1).val
    omega)

/-- A vector recast to one row reads, at column `c`, the vector's entry `c`. -/
theorem row_entry (b : IVec S16384 32) (y : S1x16384.Idx) (c : Fin 16384) (hc : (y 1).val = c.val) :
    shapeCast S1x16384 b shapeCasts_S16384_S1x16384 y = b (ix1 c) :=
  shapeCast_apply b shapeCasts_S16384_S1x16384 y (ix1 c) (by
    have h0 : (y 0).val < 1 := (y 0).isLt
    rw [Shape.rowMajor_val_two, Shape.rowMajor_val_one]
    show c.val = (y 0).val * 16384 + (y 1).val
    omega)

/-! ## Which blocks a point touches -/

theorem offsets_zero : (![0, 0] : Fin 2 → Nat) = fun _ => 0 := funext fun a => by fin_cases a <;> rfl

/-- Point `t` is tile `(t / 16, t % 16)`: the block index of every window there, decided over the 256 points. -/
theorem tile_of_point : ∀ t : Fin cfg0.N,
    win0_4.index t (0 : Fin 2) = t.val / 16 ∧ win0_4.index t (1 : Fin 2) = t.val % 16
    ∧ win0_5.index t (0 : Fin 2) = t.val / 16 ∧ win0_5.index t (1 : Fin 2) = t.val % 16
    ∧ win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

/-- The grid has 256 points. -/
theorem points : cfg0.N = 256 := N_0

/-! ## The specification at the launch contents -/

/-- The masked scores of the arguments as launched. -/
abbrev scoresOf (c : Dev nD) : S16384x16384.Idx → EReal :=
  Cert.SameBatch.scores (m ((c : Thread nD τ).loc main_arg0)) (m ((c : Thread nD τ).loc main_arg1))
    (m ((c : Thread nD τ).loc main_arg2)) (m ((c : Thread nD τ).loc main_arg3))

/-- The same-batch mask of the arguments as launched, each bit widened to a word. -/
abbrev wordsOf (c : Dev nD) : S16384x16384.Idx → BitVec 32 :=
  fun i => (Cert.SameBatch.mask (m ((c : Thread nD τ).loc main_arg2)) (m ((c : Thread nD τ).loc main_arg3)) i).setWidth 32

/-! ## What a point writes back -/

/-- Point `t` writes back block `t` of the masked scores. -/
theorem scores_block (c : Dev nD) (t : Fin cfg0.N) :
    (dats m 0 c).flushed 4 t = ((cfg0.win 4).blk t).view.read (Elt Ideal) (scoresOf m c) := by
  show (cfg0.win 4).cut (grid0.coords t) ((dats m 0 c).after 4 t) = _
  rw [after0_4]
  unfold out0_4
  rw [View.canon_unit_zero offsets_zero]
  simp only [View.ld_unit_zero (S := S1024x512) offsets_zero, View.ld_unit_zero (S := S1024x1) offsets_zero,
    View.ld_unit_zero (S := S1x1024) offsets_zero]
  obtain ⟨e40, e41, e50, e51, e00, e01, e10, e11, e20, e21, e30, e31⟩ := tile_of_point t
  funext j
  obtain ⟨p, q, rfl⟩ : ∃ (p q : Fin 1024), j = ix2 p q := ⟨j 0, j 1, eq_ix2 j⟩
  show k0_pay2 (F := Ideal) (iblk m c 0 t) (iblk m c 1 t) (iblk m c 2 t) (iblk m c 3 t) (ix2 p q)
    = Cert.SameBatch.scoreAt (m ((c : Thread nD τ).loc main_arg0)) (m ((c : Thread nD τ).loc main_arg1))
        (m ((c : Thread nD τ).loc main_arg2)) (m ((c : Thread nD τ).loc main_arg3))
        (((cfg0.win 4).blk t).view.emb (ix2 p q) 0) (((cfg0.win 4).blk t).view.emb (ix2 p q) 1)
  refine Tile.score_of_blocks _ _ _ _ (iblk m c 0 t) (iblk m c 1 t) (iblk m c 2 t) (iblk m c 3 t) _ _ p q ?_ ?_ ?_ ?_
  · intro k
    show V m c main_arg0 (((cfg0.win 0).blk t).view.emb (ix2 p k)) = _
    refine (congrFun (V_main_arg0 m c) _).trans (congrArg _ (funext fun a => Fin.ext ?_))
    match a with
    | ⟨0, _⟩ => show win0_0.index t (0 : Fin 2) * 1024 + 1 * p.val = win0_4.index t (0 : Fin 2) * 1024 + 1 * p.val; omega
    | ⟨1, _⟩ => show win0_0.index t (1 : Fin 2) * 512 + 1 * k.val = k.val; omega
  · intro k
    show V m c main_arg1 (((cfg0.win 1).blk t).view.emb (ix2 q k)) = _
    refine (congrFun (V_main_arg1 m c) _).trans (congrArg _ (funext fun a => Fin.ext ?_))
    match a with
    | ⟨0, _⟩ => show win0_1.index t (0 : Fin 2) * 1024 + 1 * q.val = win0_4.index t (1 : Fin 2) * 1024 + 1 * q.val; omega
    | ⟨1, _⟩ => show win0_1.index t (1 : Fin 2) * 512 + 1 * k.val = k.val; omega
  · show V m c main_v0 (((cfg0.win 2).blk t).view.emb (ix2 p (0 : Fin 1))) = _
    refine (congrFun (batch_column m c) _).trans (column_entry _ _ _ ?_)
    show win0_2.index t (0 : Fin 2) * 1024 + 1 * p.val = win0_4.index t (0 : Fin 2) * 1024 + 1 * p.val
    omega
  · show V m c main_v1 (((cfg0.win 3).blk t).view.emb (ix2 (0 : Fin 1) q)) = _
    refine (congrFun (batch_row m c) _).trans (row_entry _ _ _ ?_)
    show win0_3.index t (1 : Fin 2) * 1024 + 1 * q.val = win0_4.index t (1 : Fin 2) * 1024 + 1 * q.val
    omega

/-- Point `t` writes back block `t` of the widened mask. -/
theorem words_block (c : Dev nD) (t : Fin cfg0.N) :
    (dats m 0 c).flushed 5 t = ((cfg0.win 5).blk t).view.read (Elt Ideal) (wordsOf m c) := by
  show (cfg0.win 5).cut (grid0.coords t) ((dats m 0 c).after 5 t) = _
  rw [after0_5]
  unfold out0_5
  rw [View.canon_unit_zero offsets_zero]
  simp only [View.ld_unit_zero (S := S1024x1) offsets_zero, View.ld_unit_zero (S := S1x1024) offsets_zero]
  obtain ⟨e40, e41, e50, e51, e00, e01, e10, e11, e20, e21, e30, e31⟩ := tile_of_point t
  funext j
  obtain ⟨p, q, rfl⟩ : ∃ (p q : Fin 1024), j = ix2 p q := ⟨j 0, j 1, eq_ix2 j⟩
  show k0_pay3 (F := Ideal) (iblk m c 2 t) (iblk m c 3 t) (ix2 p q)
    = (Cert.SameBatch.same (m ((c : Thread nD τ).loc main_arg2)) (m ((c : Thread nD τ).loc main_arg3))
        (((cfg0.win 5).blk t).view.emb (ix2 p q) 0) (((cfg0.win 5).blk t).view.emb (ix2 p q) 1)).setWidth 32
  refine Tile.word_of_blocks _ _ (iblk m c 2 t) (iblk m c 3 t) _ _ p q ?_ ?_
  · show V m c main_v0 (((cfg0.win 2).blk t).view.emb (ix2 p (0 : Fin 1))) = _
    refine (congrFun (batch_column m c) _).trans (column_entry _ _ _ ?_)
    show win0_2.index t (0 : Fin 2) * 1024 + 1 * p.val = win0_5.index t (0 : Fin 2) * 1024 + 1 * p.val
    omega
  · show V m c main_v1 (((cfg0.win 3).blk t).view.emb (ix2 (0 : Fin 1) q)) = _
    refine (congrFun (batch_row m c) _).trans (row_entry _ _ _ ?_)
    show win0_3.index t (1 : Fin 2) * 1024 + 1 * q.val = win0_5.index t (1 : Fin 2) * 1024 + 1 * q.val
    omega

/-! ## The blocks cover the arrays -/

/-- An entry of the scores array is in point `t`'s block iff each coordinate is in the block's range. -/
theorem mem_scores_block (t : Fin cfg0.N) (i : S16384x16384.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v2_0).slice (win0_4.rect t)).set ↔ _
  rw [View.set_slice_whole, Rect.mem_set_unit]
  exact Iff.rfl

/-- An entry of the mask-words array is in point `t`'s block iff each coordinate is in the block's range. -/
theorem mem_words_block (t : Fin cfg0.N) (i : S16384x16384.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v2_1).slice (win0_5.rect t)).set ↔ _
  rw [View.set_slice_whole, Rect.mem_set_unit]
  exact Iff.rfl

/-- The point whose tile holds entry `(r, c)`: `16·(r / 1024) + c / 1024`. -/
theorem point_of_entry (i : S16384x16384.Idx) :
    ∃ t : Fin cfg0.N, t.val = (i 0).val / 1024 * 16 + (i 1).val / 1024 := by
  have hi0 : (i 0).val < 16384 := (i 0).isLt
  have hi1 : (i 1).val < 16384 := (i 1).isLt
  exact ⟨⟨(i 0).val / 1024 * 16 + (i 1).val / 1024, by rw [points]; omega⟩, rfl⟩

/-- Every entry of the scores array is in some point's block. -/
theorem scores_covered (i : S16384x16384.Idx) :
    ∃ t : Fin cfg0.N, (cfg0.win 4).flush t = true ∧ i ∈ ((cfg0.win 4).blk t).view.set := by
  have hi0 : (i 0).val < 16384 := (i 0).isLt
  have hi1 : (i 1).val < 16384 := (i 1).isLt
  obtain ⟨t, ht⟩ := point_of_entry i
  obtain ⟨e40, e41, -⟩ := tile_of_point t
  refine ⟨t, flush0_4 t, ?_⟩
  rw [mem_scores_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- Every entry of the mask-words array is in some point's block. -/
theorem words_covered (i : S16384x16384.Idx) :
    ∃ t : Fin cfg0.N, (cfg0.win 5).flush t = true ∧ i ∈ ((cfg0.win 5).blk t).view.set := by
  have hi0 : (i 0).val < 16384 := (i 0).isLt
  have hi1 : (i 1).val < 16384 := (i 1).isLt
  obtain ⟨t, ht⟩ := point_of_entry i
  obtain ⟨-, -, e50, e51, -⟩ := tile_of_point t
  refine ⟨t, flush0_5 t, ?_⟩
  rw [mem_words_block]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1024 ≤ (i 1).val ∧ (i 1).val < win0_5.index t (1 : Fin 2) * 1024 + 1024
    omega

/-! ## The arrays after the region -/

/-- The scores array ends holding the masked scores. -/
theorem scores_array (c : Dev nD) : (dats m 0 c).arrAt 4 cfg0.N = scoresOf m c :=
  (dats m 0 c).arrAt_eq_of_cover 4 (scoresOf m c) (fun t _ => scores_block m c t) scores_covered

/-- The mask-words array ends holding the widened mask. -/
theorem words_array (c : Dev nD) : (dats m 0 c).arrAt 5 cfg0.N = wordsOf m c :=
  (dats m 0 c).arrAt_eq_of_cover 5 (wordsOf m c) (fun t _ => words_block m c t) words_covered

end Cert.KernelIdeal.Tiles

end
-- ==== Proof.KernelResult.lean ====
/-
  The kernel's two results.

  The scores are the region's first output array as it stands.  The region's second output array holds each mask bit
  widened to a 32-bit word; after the region the program compares that array with zero, entry by entry, and returns the
  comparison.  A widened bit is nonzero exactly when the bit is set, so the returned array is the same-batch mask.
-/
import proofs.«140015_j11982958756713_1_alg».proof.Proof.TilesToArrays

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The same-batch mask of the arguments as launched. -/
abbrev maskOf (c : Dev nD) : S16384x16384.Idx → BitVec 1 :=
  Cert.SameBatch.mask (m ((c.tc : Thread nD τ).loc main_arg2)) (m ((c.tc : Thread nD τ).loc main_arg3))

/-- The array of words after the region, as the lines after the region find it. -/
theorem words_after (c : Dev nD) :
    Pipeline.withArrays spec0 c (V0 m c) (fun w => (dats m 0 c).arrAt w cfg0.N) (Proc.devRef .tc (Pipeline.arrRef spec0 5))
      = Tiles.wordsOf m c :=
  (Pipeline.withArrays_arr spec0 launch0.win.arr_inj c (V0 m c) (fun w => (dats m 0 c).arrAt w cfg0.N) 5).trans
    (Tiles.words_array m c)

/-- Comparing the stored words with zero returns the mask. -/
theorem mask_result (c : Dev nD) :
    Pipeline.afterTail₀ cfgs (dats m) 0 (V0 m) [hostOps1] c main_v5 = maskOf m c := by
  unfold Pipeline.afterTail₀
  show StableHlo.after hostOps1 _ (Proc.devRef .tc main_v5) = _
  after_results
  show id (cmpi .ne
      (Pipeline.withArrays spec0 c (V0 m c) (fun w => (dats m 0 c).arrAt w cfg0.N) (Proc.devRef .tc (Pipeline.arrRef spec0 5)))
      (broadcastInDim S16384x16384 ![] bcast_S_S16384x16384 (constantI S_ 32 0#32))) = _
  rw [words_after]
  funext i
  exact Cert.SameBatch.ne_zero_of_widened _

/-- Every weakly fair execution of the idealized kernel terminates with the scores array at the masked scores, the
    returned mask at the same-batch mask, and the arguments as launched. -/
theorem run : θ_run defs (onTc (τ := τ) (main (F := Ideal))) ⟨m, fun _ => 0, ρ⟩ fun r => ∀ c : Dev nD,
      r.2.mem ((c.tc : Thread nD τ).loc main_v2_0) = Tiles.scoresOf m c
      ∧ r.2.mem ((c.tc : Thread nD τ).loc main_v5) = maskOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (Tiles.scores_array m c),
      ((h c).2 main_v5 (Pipeline.mem_restRefs_of main_v5 (by decide) (by decide))).trans (mask_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.ReferenceEntries.lean ====
/-
  The reference's two results are the specification.

  The reference transposes the candidates, takes the plain matrix product with the queries, compares the two batch
  vectors after spreading one down the rows and the other across the columns, and selects between the product and a
  spread −∞.  Read at entry `(r, c)`: the transposed candidates at `(k, c)` are the candidates at `(c, k)`, so the
  product is Σ_{k < 512} hq (r, k) · hc (c, k); the spread vectors at `(r, c)` are `bq r` and `bc c`; the spread
  constant is the word 0xFF800000 everywhere.
-/
import proofs.«140015_j11982958756713_1_alg».proof.Proof.Gen.ReferenceIdeal.Read
import proofs.«140015_j11982958756713_1_alg».proof.Proof.SameBatchScores

noncomputable section

namespace Cert.ReferenceIdeal.Entries

open Cert.ReferenceIdeal Cert.ReferenceIdeal.Gen Cert.ReferenceIdeal.Read Idealize.ShloMosaic Idealize.ShloMosaic.ValueIdx

/-- The comparison of the spread batch vectors is the same-batch mask. -/
theorem mask_eq (x2 x3 : (⟨S16384, .i32⟩ : BufTy).Contents (Elt Ideal)) :
    val_main_v6 (F := Ideal) x2 x3 = Cert.SameBatch.mask x2 x3 := by
  funext i
  rw [val_main_v6_apply, val_main_v4_apply, val_main_v5_apply, val_main_v2_apply, val_main_v3_apply]
  have e2 : idx_main_v2 (idx_main_v4 i) = ix1 (i 0) := funext fun a => Fin.ext (by match a with | ⟨0, _⟩ => rfl)
  have e3 : idx_main_v3 (idx_main_v5 i) = ix1 (i 1) := funext fun a => Fin.ext (by match a with | ⟨0, _⟩ => rfl)
  rw [e2, e3]
  rfl

/-- The selected product is the masked scores. -/
theorem scores_eq (x0 x1 : (⟨S16384x512, .f32⟩ : BufTy).Contents (Elt Ideal))
    (x2 x3 : (⟨S16384, .i32⟩ : BufTy).Contents (Elt Ideal)) :
    val_main_v7 (F := Ideal) x0 x1 x2 x3 = Cert.SameBatch.scores x0 x1 x2 x3 := by
  funext i
  rw [val_main_v7_apply, mask_eq, val_main_call0_v1_apply, val_main_call0_v0_apply, val_main_cst_apply, val_main_v1_apply]
  show Scalar.select (Cert.SameBatch.mask x2 x3 i) _ _
    = Scalar.select (Cert.SameBatch.same x2 x3 (i 0) (i 1)) (∑ k : Fin 512, x0 (ix2 (i 0) k) * x1 (ix2 (i 1) k))
        (Ideal.ofBits .f32 0xFF800000#32)
  refine congrArg (fun s => Scalar.select (Cert.SameBatch.same x2 x3 (i 0) (i 1)) s (Ideal.ofBits .f32 0xFF800000#32))
    (Finset.sum_congr rfl fun k _ => ?_)
  rw [val_main_v0_apply]
  have el : lidx_main_v1 i k = ix2 (i 0) k := funext fun a => Fin.ext (by match a with | ⟨0, _⟩ => rfl | ⟨1, _⟩ => rfl)
  have er : idx_main_v0 (ridx_main_v1 i k) = ix2 (i 1) k :=
    funext fun a => Fin.ext (by match a with | ⟨0, _⟩ => rfl | ⟨1, _⟩ => rfl)
  rw [el, er]
  rfl

end Cert.ReferenceIdeal.Entries

end
-- ==== Proof.lean ====
/-
  Same-batch masked dot-product scores: the tiled kernel against the whole-array reference.

  Both programs take 16384 queries and 16384 candidates with 512 features each and a batch number per query and per
  candidate, and return the scores  Σ_k hq (r, k) · hc (c, k)  where query `r` and candidate `c` share a batch number and
  −∞ elsewhere, together with the mask of the pairs that share one.

  The kernel works tile by tile: each of its 16 × 16 grid points multiplies a block of 1024 queries (rounded to a
  narrower format) with a block of 1024 candidates, compares the two stretches of batch numbers, and writes one
  1024 × 1024 block of the scores and one of the mask stored as words, which the program turns back into bits by a
  comparison with zero.  The reference forms the whole product and the whole mask at once.  Over the extended reals
  rounding is the identity and a block of the product is the product of the blocks' rows, so both are one function of
  the arguments (Proof/SameBatchScores.lean): the kernel's side is Proof/TileEntries.lean (one tile, entry by entry),
  Proof/TilesToArrays.lean (the tiles cover the arrays) and Proof/KernelResult.lean (the mask read back from words); the
  reference's side is Proof/ReferenceEntries.lean.  No law used needs the inputs finite: the sum over the 512 features
  is the same sum, term by term, on both sides.
-/
import proofs.«140015_j11982958756713_1_alg».proof.Defs
import proofs.«140015_j11982958756713_1_alg».proof.Proof.Gen.Kernel
import proofs.«140015_j11982958756713_1_alg».proof.Proof.Gen.Kernel.Skeleton
import proofs.«140015_j11982958756713_1_alg».proof.Proof.Gen.Kernel.Launch
import proofs.«140015_j11982958756713_1_alg».proof.Proof.Gen.Kernel.Points
import proofs.«140015_j11982958756713_1_alg».proof.Proof.Gen.Kernel.Frame
import proofs.«140015_j11982958756713_1_alg».proof.Proof.Gen.KernelIdeal
import proofs.«140015_j11982958756713_1_alg».proof.Proof.Gen.KernelIdeal.Skeleton
import proofs.«140015_j11982958756713_1_alg».proof.Proof.Gen.KernelIdeal.Launch
import proofs.«140015_j11982958756713_1_alg».proof.Proof.Gen.KernelIdeal.Points
import proofs.«140015_j11982958756713_1_alg».proof.Proof.Gen.KernelIdeal.Frame
import proofs.«140015_j11982958756713_1_alg».proof.Proof.Gen.ReferenceIdeal
import proofs.«140015_j11982958756713_1_alg».proof.Proof.Gen.Pre_finite_inputs
import proofs.«140015_j11982958756713_1_alg».proof.Proof.Gen.ReferenceIdeal.Run
import proofs.«140015_j11982958756713_1_alg».proof.Proof.Gen.ReferenceIdeal.Read
import proofs.«140015_j11982958756713_1_alg».proof.Proof.KernelResult
import proofs.«140015_j11982958756713_1_alg».proof.Proof.ReferenceEntries
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both idealized programs end with the masked scores and the same-batch
    mask of those arguments. -/
theorem algebraic : Cert.algebraic_KernelIdeal_ReferenceIdeal := by
  intro m ρ m' ρ' _ hagree
  refine ⟨fun c => Cert.KernelIdeal.Tiles.scoresOf m c, fun c => Cert.KernelIdeal.Result.maskOf m c,
    Cert.KernelIdeal.Result.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v7_eq, Cert.ReferenceIdeal.Entries.scores_eq,
      (hagree c).1, (hagree c).2.1, (hagree c).2.2.1, (hagree c).2.2.2]
  · rw [(h c).2.1, Cert.ReferenceIdeal.Read.val_main_v6_eq, Cert.ReferenceIdeal.Entries.mask_eq,
      (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
